-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1536 : Shape := ⟨2, ![32, 1536]⟩
abbrev S1536x5 : Shape := ⟨2, ![1536, 5]⟩
abbrev S5 : Shape := ⟨1, ![5]⟩
abbrev S1536x3 : Shape := ⟨2, ![1536, 3]⟩
abbrev S3 : Shape := ⟨1, ![3]⟩
abbrev S1536x256 : Shape := ⟨2, ![1536, 256]⟩
abbrev S256 : Shape := ⟨1, ![256]⟩
abbrev S256x5 : Shape := ⟨2, ![256, 5]⟩
abbrev S_ : Shape := ⟨0, ![]⟩

class Facts : Prop where
  bcast_S_S32x1536 : S_.BroadcastsInDim S32x1536 (![] : Fin 0 → Fin S32x1536.rank)
  reducesTo_S32x1536_S_d0_1 : S32x1536.ReducesTo [0, 1] S_
  h_S_ : 0 < S_.numel
  bcast_S_S1536x5 : S_.BroadcastsInDim S1536x5 (![] : Fin 0 → Fin S1536x5.rank)
  reducesTo_S1536x5_S_d0_1 : S1536x5.ReducesTo [0, 1] S_
  bcast_S_S5 : S_.BroadcastsInDim S5 (![] : Fin 0 → Fin S5.rank)
  reducesTo_S5_S_d0 : S5.ReducesTo [0] S_
  bcast_S_S1536x3 : S_.BroadcastsInDim S1536x3 (![] : Fin 0 → Fin S1536x3.rank)
  reducesTo_S1536x3_S_d0_1 : S1536x3.ReducesTo [0, 1] S_
  bcast_S_S3 : S_.BroadcastsInDim S3 (![] : Fin 0 → Fin S3.rank)
  reducesTo_S3_S_d0 : S3.ReducesTo [0] S_
  bcast_S_S1536x256 : S_.BroadcastsInDim S1536x256 (![] : Fin 0 → Fin S1536x256.rank)
  reducesTo_S1536x256_S_d0_1 : S1536x256.ReducesTo [0, 1] S_
  bcast_S_S256 : S_.BroadcastsInDim S256 (![] : Fin 0 → Fin S256.rank)
  reducesTo_S256_S_d0 : S256.ReducesTo [0] S_
  bcast_S_S256x5 : S_.BroadcastsInDim S256x5 (![] : Fin 0 → Fin S256x5.rank)
  reducesTo_S256x5_S_d0_1 : S256x5.ReducesTo [0, 1] S_

variable [Facts]

def fn_part2 {F : FTy → Type} [FloatOps F] (main_arg7 : FVec F S256x5 .f32) (main_arg8 : FVec F S5 .f32) (main_v33 : IVec S_ 1) : IVec S_ 1 :=
  let main_v34 : FVec F S256x5 .f32 := Host.absf main_arg7
  let main_cst_12 : FVec F S_ .f32 := constant S_ .f32 0x7F800000#32
  let main_v35 : FVec F S256x5 .f32 := broadcastInDim S256x5 ![] bcast_S_S256x5 main_cst_12
  let main_v36 : IVec S256x5 1 := cmpf .olt main_v34 main_v35
  let main_c_13 : IVec S_ 1 := constantI S_ 1 1#1
  let main_v37 : IVec S_ 1 := (fun x v => Host.reduce IntOp.andi x v reducesTo_S256x5_S_d0_1 h_S_) main_v36 main_c_13
  let main_v38 : IVec S_ 1 := andi main_v33 main_v37
  let main_v39 : FVec F S5 .f32 := Host.absf main_arg8
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg4 : FVec F S3 .f32) (main_arg5 : FVec F S1536x256 .f32) (main_arg6 : FVec F S256 .f32) (main_arg7 : FVec F S256x5 .f32) (main_arg8 : FVec F S5 .f32) (main_v13 : IVec S_ 1) (main_v16 : IVec S1536x3 1) : IVec S_ 1 :=
  let main_c_5 : IVec S_ 1 := constantI S_ 1 1#1
  let main_v17 : IVec S_ 1 := (fun x v => Host.reduce IntOp.andi x v reducesTo_S1536x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S1536x256 .f32 := Host.absf main_arg5
  let main_cst_8 : FVec F S_ .f32 := constant S_ .f32 0x7F800000#32
  let main_v25 : FVec F S1536x256 .f32 := broadcastInDim S1536x256 ![] bcast_S_S1536x256 main_cst_8
  let main_v26 : IVec S1536x256 1 := cmpf .olt main_v24 main_v25
  let main_c_9 : IVec S_ 1 := constantI S_ 1 1#1
  let main_v27 : IVec S_ 1 := (fun x v => Host.reduce IntOp.andi x v reducesTo_S1536x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S32x1536 .f32) (main_arg1 : FVec F S1536x5 .f32) (main_arg2 : FVec F S5 .f32) (main_arg3 : FVec F S1536x3 .f32) (main_arg4 : FVec F S3 .f32) (main_arg5 : FVec F S1536x256 .f32) (main_arg6 : FVec F S256 .f32) (main_arg7 : FVec F S256x5 .f32) (main_arg8 : FVec F S5 .f32) : IVec S_ 1 :=
  let main_v0 : FVec F S32x1536 .f32 := Host.absf main_arg0
  let main_cst : FVec F S_ .f32 := constant S_ .f32 0x7F800000#32
  let main_v1 : FVec F S32x1536 .f32 := broadcastInDim S32x1536 ![] bcast_S_S32x1536 main_cst
  let main_v2 : IVec S32x1536 1 := cmpf .olt main_v0 main_v1
  let main_c : IVec S_ 1 := constantI S_ 1 1#1
  let main_v3 : IVec S_ 1 := (fun x v => Host.reduce IntOp.andi x v reducesTo_S32x1536_S_d0_1 h_S_) main_v2 main_c
  let main_v4 : FVec F S1536x5 .f32 := Host.absf main_arg1
  let main_cst_0 : FVec F S_ .f32 := constant S_ .f32 0x7F800000#32
  let main_v5 : FVec F S1536x5 .f32 := broadcastInDim S1536x5 ![] bcast_S_S1536x5 main_cst_0
  let main_v6 : IVec S1536x5 1 := cmpf .olt main_v4 main_v5
  let main_c_1 : IVec S_ 1 := constantI S_ 1 1#1
  let main_v7 : IVec S_ 1 := (fun x v => Host.reduce IntOp.andi x v reducesTo_S1536x5_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S1536x3 .f32 := Host.absf main_arg3
  let main_cst_4 : FVec F S_ .f32 := constant S_ .f32 0x7F800000#32
  let main_v15 : FVec F S1536x3 .f32 := broadcastInDim S1536x3 ![] bcast_S_S1536x3 main_cst_4
  let main_v16 : IVec S1536x3 1 := cmpf .olt main_v14 main_v15
  fn_part1 (F := F) main_arg4 main_arg5 main_arg6 main_arg7 main_arg8 main_v13 main_v16
-- ==== Kernel.lean ====
abbrev S32x1536 : Shape := ⟨2, ![32, 1536]⟩
abbrev S1536x5 : Shape := ⟨2, ![1536, 5]⟩
abbrev S5 : Shape := ⟨1, ![5]⟩
abbrev S1536x3 : Shape := ⟨2, ![1536, 3]⟩
abbrev S3 : Shape := ⟨1, ![3]⟩
abbrev S1536x256 : Shape := ⟨2, ![1536, 256]⟩
abbrev S256 : Shape := ⟨1, ![256]⟩
abbrev S256x5 : Shape := ⟨2, ![256, 5]⟩
abbrev S32x5 : Shape := ⟨2, ![32, 5]⟩
abbrev S32x3 : Shape := ⟨2, ![32, 3]⟩
abbrev S1x5 : Shape := ⟨2, ![1, 5]⟩
abbrev S1x3 : Shape := ⟨2, ![1, 3]⟩
abbrev S32x1x1536 : Shape := ⟨3, ![32, 1, 1536]⟩
abbrev S32x5x512x512 : Shape := ⟨4, ![32, 5, 512, 512]⟩
abbrev S2x1x1536 : Shape := ⟨3, ![2, 1, 1536]⟩
abbrev S2x5x512x512 : Shape := ⟨4, ![2, 5, 512, 512]⟩
abbrev S2x1536 : Shape := ⟨2, ![2, 1536]⟩
abbrev S2x256 : Shape := ⟨2, ![2, 256]⟩
abbrev S1x256 : Shape := ⟨2, ![1, 256]⟩
abbrev S2x5 : Shape := ⟨2, ![2, 5]⟩
abbrev S2x5x1x1 : Shape := ⟨4, ![2, 5, 1, 1]⟩

abbrev nBuf : Space → Nat
  | .hbm => 13
  | .vmem => 15
  | .smem => 0
  | _ => 0

abbrev bufTy : (tb : Table) → Fin (tcTables nBuf tb) → BufTy
  | .hbm, ⟨0, _⟩ => ⟨S32x1536, .f32⟩
  | .hbm, ⟨1, _⟩ => ⟨S1536x5, .f32⟩
  | .hbm, ⟨2, _⟩ => ⟨S5, .f32⟩
  | .hbm, ⟨3, _⟩ => ⟨S1536x3, .f32⟩
  | .hbm, ⟨4, _⟩ => ⟨S3, .f32⟩
  | .hbm, ⟨5, _⟩ => ⟨S1536x256, .f32⟩
  | .hbm, ⟨6, _⟩ => ⟨S256, .f32⟩
  | .hbm, ⟨7, _⟩ => ⟨S256x5, .f32⟩
  | .hbm, ⟨8, _⟩ => ⟨S5, .f32⟩
  | .hbm, ⟨9, _⟩ => ⟨S32x5, .f32⟩
  | .hbm, ⟨10, _⟩ => ⟨S32x3, .f32⟩
  | .hbm, ⟨11, _⟩ => ⟨S32x1x1536, .f32⟩
  | .hbm, ⟨12, _⟩ => ⟨S32x5x512x512, .f32⟩
  | .local _ .vmem, ⟨0, _⟩ => ⟨S32x1536, .f32⟩
  | .local _ .vmem, ⟨1, _⟩ => ⟨S1536x5, .f32⟩
  | .local _ .vmem, ⟨2, _⟩ => ⟨S5, .f32⟩
  | .local _ .vmem, ⟨3, _⟩ => ⟨S1536x3, .f32⟩
  | .local _ .vmem, ⟨4, _⟩ => ⟨S3, .f32⟩
  | .local _ .vmem, ⟨5, _⟩ => ⟨S32x5, .f32⟩
  | .local _ .vmem, ⟨6, _⟩ => ⟨S32x3, .f32⟩
  | .local _ .vmem, ⟨7, _⟩ => ⟨S2x1x1536, .f32⟩
  | .local _ .vmem, ⟨8, _⟩ => ⟨S2x1x1536, .f32⟩
  | .local _ .vmem, ⟨9, _⟩ => ⟨S1536x256, .f32⟩
  | .local _ .vmem, ⟨10, _⟩ => ⟨S256, .f32⟩
  | .local _ .vmem, ⟨11, _⟩ => ⟨S256x5, .f32⟩
  | .local _ .vmem, ⟨12, _⟩ => ⟨S5, .f32⟩
  | .local _ .vmem, ⟨13, _⟩ => ⟨S2x5x512x512, .f32⟩
  | .local _ .vmem, ⟨14, _⟩ => ⟨S2x5x512x512, .f32⟩
  | _, _ => ⟨S32x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x1x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x5x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S32x1536_S32x1536_0_0 : ∀ a, (![0, 0] : Fin 2 → Nat) a + S32x1536.size a ≤ S32x1536.size a
  h_S32x1536 : 0 < S32x1536.numel
  bitsLt_bf16_f32 : FTy.bits .bf16 < FTy.bits .f32
  inb_S1536x5_S1536x5_0_0 : ∀ a, (![0, 0] : Fin 2 → Nat) a + S1536x5.size a ≤ S1536x5.size a
  h_S1536x5 : 0 < S1536x5.numel
  inb_S5_S5_0 : ∀ a, (![0] : Fin 1 → Nat) a + S5.size a ≤ S5.size a
  h_S5 : 0 < S5.numel
  shapeCasts_S5_S1x5 : S5.ShapeCasts S1x5
  broadcasts_S1x5_S32x5 : S1x5.Broadcasts S32x5
  inb_S32x5_S32x5_0_0 : ∀ a, (![0, 0] : Fin 2 → Nat) a + S32x5.size a ≤ S32x5.size a
  h_S32x5 : 0 < S32x5.numel
  inb_S1536x3_S1536x3_0_0 : ∀ a, (![0, 0] : Fin 2 → Nat) a + S1536x3.size a ≤ S1536x3.size a
  h_S1536x3 : 0 < S1536x3.numel
  inb_S3_S3_0 : ∀ a, (![0] : Fin 1 → Nat) a + S3.size a ≤ S3.size a
  h_S3 : 0 < S3.numel
  shapeCasts_S3_S1x3 : S3.ShapeCasts S1x3
  broadcasts_S1x3_S32x3 : S1x3.Broadcasts S32x3
  inb_S32x3_S32x3_0_0 : ∀ a, (![0, 0] : Fin 2 → Nat) a + S32x3.size a ≤ S32x3.size a
  h_S32x3 : 0 < S32x3.numel
  shapeCasts_S32x1536_S32x1x1536 : S32x1536.ShapeCasts S32x1x1536
  inb_S2x1x1536_S2x1x1536_0_0_0 : ∀ a, (![0, 0, 0] : Fin 3 → Nat) a + S2x1x1536.size a ≤ S2x1x1536.size a
  h_S2x1x1536 : 0 < S2x1x1536.numel
  shapeCasts_S2x1x1536_S2x1536 : S2x1x1536.ShapeCasts S2x1536
  inb_S1536x256_S1536x256_0_0 : ∀ a, (![0, 0] : Fin 2 → Nat) a + S1536x256.size a ≤ S1536x256.size a
  h_S1536x256 : 0 < S1536x256.numel
  inb_S256_S256_0 : ∀ a, (![0] : Fin 1 → Nat) a + S256.size a ≤ S256.size a
  h_S256 : 0 < S256.numel
  shapeCasts_S256_S1x256 : S256.ShapeCasts S1x256
  broadcasts_S1x256_S2x256 : S1x256.Broadcasts S2x256
  inb_S256x5_S256x5_0_0 : ∀ a, (![0, 0] : Fin 2 → Nat) a + S256x5.size a ≤ S256x5.size a
  h_S256x5 : 0 < S256x5.numel
  broadcasts_S1x5_S2x5 : S1x5.Broadcasts S2x5
  shapeCasts_S2x5_S2x5x1x1 : S2x5.ShapeCasts S2x5x1x1
  shapeCasts_S2x5x1x1_S2x5x1x1 : S2x5x1x1.ShapeCasts S2x5x1x1
  broadcasts_S2x5x1x1_S2x5x512x512 : S2x5x1x1.Broadcasts S2x5x512x512
  inb_S2x5x512x512_S2x5x512x512_0_0_0_0 : ∀ a, (![0, 0, 0, 0] : Fin 4 → Nat) a + S2x5x512x512.size a ≤ S2x5x512x512.size a
  h_S2x5x512x512 : 0 < S2x5x512x512.numel
  dot_S32x1536_S1536x5_S32x5_1_0_0_1_n_n_wf : DotDims.WF S32x1536 S1536x5 S32x5 [1] [0] [0] [1] [] []
  dot_S32x1536_S1536x3_S32x3_1_0_0_1_n_n_wf : DotDims.WF S32x1536 S1536x3 S32x3 [1] [0] [0] [1] [] []
  dot_S2x1536_S1536x256_S2x256_1_0_0_1_n_n_wf : DotDims.WF S2x1536 S1536x256 S2x256 [1] [0] [0] [1] [] []
  dot_S2x256_S256x5_S2x5_1_0_0_1_n_n_wf : DotDims.WF S2x256 S256x5 S2x5 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1536.size a ≤ S32x1536.size a
  hwx0_0 : ∀ i : grid0.Coords, EltTy.bits .f32 = 32 ∨ (Rect.block (s := S32x1536) S32x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x5.size a ≤ S1536x5.size a
  hwx0_1 : ∀ i : grid0.Coords, EltTy.bits .f32 = 32 ∨ (Rect.block (s := S1536x5) S1536x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5.size a ≤ S5.size a
  hwx0_2 : ∀ i : grid0.Coords, EltTy.bits .f32 = 32 ∨ (Rect.block (s := S5) S5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x3.size a ≤ S1536x3.size a
  hwx0_3 : ∀ i : grid0.Coords, EltTy.bits .f32 = 32 ∨ (Rect.block (s := S1536x3) S1536x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x5.size a ≤ S32x5.size a
  hwx0_5 : ∀ i : grid0.Coords, EltTy.bits .f32 = 32 ∨ (Rect.block (s := S32x5) S32x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x3.size a ≤ S32x3.size a
  hwx0_6 : ∀ i : grid0.Coords, EltTy.bits .f32 = 32 ∨ (Rect.block (s := S32x3) S32x3.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1x1536.size a ≤ S32x1x1536.size a
  hwx1_0 : ∀ i : grid1.Coords, EltTy.bits .f32 = 32 ∨ (Rect.block (s := S32x1x1536) S2x1x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1536x256.size a ≤ S1536x256.size a
  hwx1_1 : ∀ i : grid1.Coords, EltTy.bits .f32 = 32 ∨ (Rect.block (s := S1536x256) S1536x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x5.size a ≤ S256x5.size a
  hwx1_3 : ∀ i : grid1.Coords, EltTy.bits .f32 = 32 ∨ (Rect.block (s := S256x5) S256x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S5.size a ≤ S5.size a
  hwx1_4 : ∀ i : grid1.Coords, EltTy.bits .f32 = 32 ∨ (Rect.block (s := S5) S5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x5x512x512.size a ≤ S32x5x512x512.size a
  hwx1_5 : ∀ i : grid1.Coords, EltTy.bits .f32 = 32 ∨ (Rect.block (s := S32x5x512x512) S2x5x512x512.size (cc1_transform_5 i) (hinb1_5 i)).WholeWords (EltTy.packing .f32)

variable [Facts₀]

def dot_S32x1536_S1536x5_S32x5_1_0_0_1_n_n : DotDims S32x1536 S1536x5 S32x5 where
  lhsContracting := [1]
  rhsContracting := [0]
  lhsNonContracting := [0]
  rhsNonContracting := [1]
  lhsBatch := []
  rhsBatch := []
  wf := dot_S32x1536_S1536x5_S32x5_1_0_0_1_n_n_wf
def dot_S32x1536_S1536x3_S32x3_1_0_0_1_n_n : DotDims S32x1536 S1536x3 S32x3 where
  lhsContracting := [1]
  rhsContracting := [0]
  lhsNonContracting := [0]
  rhsNonContracting := [1]
  lhsBatch := []
  rhsBatch := []
  wf := dot_S32x1536_S1536x3_S32x3_1_0_0_1_n_n_wf
def dot_S2x1536_S1536x256_S2x256_1_0_0_1_n_n : DotDims S2x1536 S1536x256 S2x256 where
  lhsContracting := [1]
  rhsContracting := [0]
  lhsNonContracting := [0]
  rhsNonContracting := [1]
  lhsBatch := []
  rhsBatch := []
  wf := dot_S2x1536_S1536x256_S2x256_1_0_0_1_n_n_wf
def dot_S2x256_S256x5_S2x5_1_0_0_1_n_n : DotDims S2x256 S256x5 S2x5 where
  lhsContracting := [1]
  rhsContracting := [0]
  lhsNonContracting := [0]
  rhsNonContracting := [1]
  lhsBatch := []
  rhsBatch := []
  wf := dot_S2x256_S256x5_S2x5_1_0_0_1_n_n_wf

abbrev win0_0 : Pipeline.Window sig grid0 :=
  Pipeline.Window.ofSpec (Memref.whole main_arg0) S32x1536.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1536x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1536x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S32x5.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S32x3.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S2x1x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1536x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S2x5x512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x1536 : Shape := ⟨2, ![32, 1536]⟩
abbrev S1536x5 : Shape := ⟨2, ![1536, 5]⟩
abbrev S5 : Shape := ⟨1, ![5]⟩
abbrev S1536x3 : Shape := ⟨2, ![1536, 3]⟩
abbrev S3 : Shape := ⟨1, ![3]⟩
abbrev S1536x256 : Shape := ⟨2, ![1536, 256]⟩
abbrev S256 : Shape := ⟨1, ![256]⟩
abbrev S256x5 : Shape := ⟨2, ![256, 5]⟩
abbrev S32x5 : Shape := ⟨2, ![32, 5]⟩
abbrev S1x5 : Shape := ⟨2, ![1, 5]⟩
abbrev S32x3 : Shape := ⟨2, ![32, 3]⟩
abbrev S1x3 : Shape := ⟨2, ![1, 3]⟩
abbrev S32x256 : Shape := ⟨2, ![32, 256]⟩
abbrev S1x256 : Shape := ⟨2, ![1, 256]⟩
abbrev S_ : Shape := ⟨0, ![]⟩
abbrev S32x5x1x1 : Shape := ⟨4, ![32, 5, 1, 1]⟩
abbrev S32x5x512x512 : Shape := ⟨4, ![32, 5, 512, 512]⟩

abbrev nBuf : Space → Nat
  | .hbm => 30
  | .vmem => 0
  | .smem => 0
  | _ => 0

abbrev bufTy : (tb : Table) → Fin (tcTables nBuf tb) → BufTy
  | .hbm, ⟨0, _⟩ => ⟨S32x1536, .f32⟩
  | .hbm, ⟨1, _⟩ => ⟨S1536x5, .f32⟩
  | .hbm, ⟨2, _⟩ => ⟨S5, .f32⟩
  | .hbm, ⟨3, _⟩ => ⟨S1536x3, .f32⟩
  | .hbm, ⟨4, _⟩ => ⟨S3, .f32⟩
  | .hbm, ⟨5, _⟩ => ⟨S1536x256, .f32⟩
  | .hbm, ⟨6, _⟩ => ⟨S256, .f32⟩
  | .hbm, ⟨7, _⟩ => ⟨S256x5, .f32⟩
  | .hbm, ⟨8, _⟩ => ⟨S5, .f32⟩
  | .hbm, ⟨9, _⟩ => ⟨S32x5, .f32⟩
  | .hbm, ⟨10, _⟩ => ⟨S1x5, .f32⟩
  | .hbm, ⟨11, _⟩ => ⟨S32x5, .f32⟩
  | .hbm, ⟨12, _⟩ => ⟨S32x5, .f32⟩
  | .hbm, ⟨13, _⟩ => ⟨S32x3, .f32⟩
  | .hbm, ⟨14, _⟩ => ⟨S1x3, .f32⟩
  | .hbm, ⟨15, _⟩ => ⟨S32x3, .f32⟩
  | .hbm, ⟨16, _⟩ => ⟨S32x3, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S_, .f32⟩
  | .hbm, ⟨22, _⟩ => ⟨S32x256, .f32⟩
  | .hbm, ⟨23, _⟩ => ⟨S32x256, .f32⟩
  | .hbm, ⟨24, _⟩ => ⟨S32x5, .f32⟩
  | .hbm, ⟨25, _⟩ => ⟨S1x5, .f32⟩
  | .hbm, ⟨26, _⟩ => ⟨S32x5, .f32⟩
  | .hbm, ⟨27, _⟩ => ⟨S32x5, .f32⟩
  | .hbm, ⟨28, _⟩ => ⟨S32x5x1x1, .f32⟩
  | .hbm, ⟨29, _⟩ => ⟨S32x5x512x512, .f32⟩
  | _, _ => ⟨S32x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S5_S1x5_1 : S5.BroadcastsInDim S1x5 (![1] : Fin 1 → Fin S1x5.rank)
  bcast_S1x5_S32x5_0_1 : S1x5.BroadcastsInDim S32x5 (![0, 1] : Fin 2 → Fin S32x5.rank)
  bcast_S3_S1x3_1 : S3.BroadcastsInDim S1x3 (![1] : Fin 1 → Fin S1x3.rank)
  bcast_S1x3_S32x3_0_1 : S1x3.BroadcastsInDim S32x3 (![0, 1] : Fin 2 → Fin S32x3.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  bcast_S32x5_S32x5x1x1_0_1 : S32x5.BroadcastsInDim S32x5x1x1 (![0, 1] : Fin 2 → Fin S32x5x1x1.rank)
  bcast_S32x5x1x1_S32x5x512x512_0_1_2_3 : S32x5x1x1.BroadcastsInDim S32x5x512x512 (![0, 1, 2, 3] : Fin 4 → Fin S32x5x512x512.rank)
  dot_S32x1536_S1536x5_S32x5_1_0_0_1_n_n_wf : DotDims.WF S32x1536 S1536x5 S32x5 [1] [0] [0] [1] [] []
  dot_S32x1536_S1536x3_S32x3_1_0_0_1_n_n_wf : DotDims.WF S32x1536 S1536x3 S32x3 [1] [0] [0] [1] [] []
  dot_S32x1536_S1536x256_S32x256_1_0_0_1_n_n_wf : DotDims.WF S32x1536 S1536x256 S32x256 [1] [0] [0] [1] [] []
  dot_S32x256_S256x5_S32x5_1_0_0_1_n_n_wf : DotDims.WF S32x256 S256x5 S32x5 [1] [0] [0] [1] [] []

variable [Facts₀]

def dot_S32x1536_S1536x5_S32x5_1_0_0_1_n_n : DotDims S32x1536 S1536x5 S32x5 where
  lhsContracting := [1]
  rhsContracting := [0]
  lhsNonContracting := [0]
  rhsNonContracting := [1]
  lhsBatch := []
  rhsBatch := []
  wf := dot_S32x1536_S1536x5_S32x5_1_0_0_1_n_n_wf
def dot_S32x1536_S1536x3_S32x3_1_0_0_1_n_n : DotDims S32x1536 S1536x3 S32x3 where
  lhsContracting := [1]
  rhsContracting := [0]
  lhsNonContracting := [0]
  rhsNonContracting := [1]
  lhsBatch := []
  rhsBatch := []
  wf := dot_S32x1536_S1536x3_S32x3_1_0_0_1_n_n_wf
def dot_S32x1536_S1536x256_S32x256_1_0_0_1_n_n : DotDims S32x1536 S1536x256 S32x256 where
  lhsContracting := [1]
  rhsContracting := [0]
  lhsNonContracting := [0]
  rhsNonContracting := [1]
  lhsBatch := []
  rhsBatch := []
  wf := dot_S32x1536_S1536x256_S32x256_1_0_0_1_n_n_wf
def dot_S32x256_S256x5_S32x5_1_0_0_1_n_n : DotDims S32x256 S256x5 S32x5 where
  lhsContracting := [1]
  rhsContracting := [0]
  lhsNonContracting := [0]
  rhsNonContracting := [1]
  lhsBatch := []
  rhsBatch := []
  wf := dot_S32x256_S256x5_S32x5_1_0_0_1_n_n_wf

class Facts : Prop extends Facts₀ where

variable [Facts]
-- ==== Proof.KernelRun.lean ====
/-
  The idealized kernel's run with its three result arrays named.

  The program is two kernel regions with one host operation between them (the reshape of the feature matrix to
  [32, 1, 1536]).  Nothing after the first region writes its two results (the class logits), so at the end of the run
  they hold what the first region's write-backs left; the third result (the broadcast segmentation map) holds what the
  second region's write-backs left.  The argument arrays end as launched.  The second region is entered with the
  reshaped features in its first array and the four weight arrays as launched.
-/
import proofs.«164530_j5746666242651_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the regions -/

/-- The reshape between the two regions writes only the reshaped copy: any other buffer is as the first region left it. -/
theorem between_keeps (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The first result (the five-class logits) at the end: what the first region's write-backs left. -/
theorem end_main_v0_0 (c : Dev nD) : W3 m ρ c (Proc.devRef .tc main_v0_0) = (dat0 (V0 m ρ) c).arrAt 5 cfg0.N :=
  calc W3 m ρ c (Proc.devRef .tc main_v0_0)
    _ = W2 m ρ c (Proc.devRef .tc main_v0_0) := W3_of_ne m ρ c main_v0_0 (by decide)
    _ = W1 m ρ c (Proc.devRef .tc main_v0_0) := between_keeps m ρ c main_v0_0 (by decide)
    _ = (dat0 (V0 m ρ) c).arrAt 5 cfg0.N := W1_arr m ρ c 5

/-- The second result (the three-class logits) at the end: what the first region's write-backs left. -/
theorem end_main_v0_1 (c : Dev nD) : W3 m ρ c (Proc.devRef .tc main_v0_1) = (dat0 (V0 m ρ) c).arrAt 6 cfg0.N :=
  calc W3 m ρ c (Proc.devRef .tc main_v0_1)
    _ = W2 m ρ c (Proc.devRef .tc main_v0_1) := W3_of_ne m ρ c main_v0_1 (by decide)
    _ = W1 m ρ c (Proc.devRef .tc main_v0_1) := between_keeps m ρ c main_v0_1 (by decide)
    _ = (dat0 (V0 m ρ) c).arrAt 6 cfg0.N := W1_arr m ρ c 6

/-- The third result (the segmentation map) at the end: what the second region's write-backs left. -/
theorem end_main_v2 (c : Dev nD) : W3 m ρ c (Proc.devRef .tc main_v2) = (dat1 (V2 m ρ) c).arrAt 5 cfg1.N :=
  W3_arr m ρ c 5

/-- A weight array of the second region is, at its entry, as launched: the first region does not stage it and the
    reshape does not write it. -/
theorem entry_main_arg5 (c : Dev nD) : V2 m ρ c main_arg5 = m ((c : Thread nD τ).loc main_arg5) :=
  (between_keeps m ρ c main_arg5 (by decide)).trans (W1_of_ne m ρ c main_arg5 (by decide))
theorem entry_main_arg6 (c : Dev nD) : V2 m ρ c main_arg6 = m ((c : Thread nD τ).loc main_arg6) :=
  (between_keeps m ρ c main_arg6 (by decide)).trans (W1_of_ne m ρ c main_arg6 (by decide))
theorem entry_main_arg7 (c : Dev nD) : V2 m ρ c main_arg7 = m ((c : Thread nD τ).loc main_arg7) :=
  (between_keeps m ρ c main_arg7 (by decide)).trans (W1_of_ne m ρ c main_arg7 (by decide))
theorem entry_main_arg8 (c : Dev nD) : V2 m ρ c main_arg8 = m ((c : Thread nD τ).loc main_arg8) :=
  (between_keeps m ρ c main_arg8 (by decide)).trans (W1_of_ne m ρ c main_arg8 (by decide))

/-- The features after the first region are the features as launched: the first region only reads them. -/
theorem mid_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The second region's first array at its entry: the launched features, reshaped to [32, 1, 1536]. -/
theorem entry_main_v1 (c : Dev nD) :
    (V2 m ρ c main_v1 : S32x1x1536.Idx → Elt F .f32)
      = shapeCast S32x1x1536 (m ((c : Thread nD τ).loc main_arg0) : S32x1536.Idx → Elt F .f32) shapeCasts_S32x1536_S32x1x1536 := by
  rw [← mid_main_arg0 m ρ c]
  show StableHlo.after hostOps1 (W1 m ρ c) (Proc.devRef .tc main_v1) = _
  after_results
  rfl

/-! ## The run -/

-- the launch theorem's implicit arguments are found by unifying its conclusion with this one, which takes unfolding
-- plain definitions in a metavariable's type
set_option backward.isDefEq.respectTransparency.types false in
/-- Every weakly fair execution of the program terminates, nothing faulting, with the two logit arrays at what the
    first region's write-backs left, the segmentation map at what the second region's left, and the nine argument
    arrays as launched: the final state is read against the last segment boundary's contents, buffer by buffer. -/
theorem run_results : θ_run defs (onTc (τ := τ) (main (F := F))) ⟨m, fun _ => 0, ρ⟩ (fun r => ∀ c : Dev nD,
      r.2.mem ((c.tc : Thread nD τ).loc main_v0_0) = (dat0 (V0 m ρ) c).arrAt 5 cfg0.N
      ∧ r.2.mem ((c.tc : Thread nD τ).loc main_v0_1) = (dat0 (V0 m ρ) c).arrAt 6 cfg0.N
      ∧ r.2.mem ((c.tc : Thread nD τ).loc main_v2) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v0_0 (by decide))).trans (end_main_v0_0 m ρ c),
       (h c _ (mem_uc main_v0_1 (by decide))).trans (end_main_v0_1 m ρ c),
       (h c _ (mem_uc main_v2 (by decide))).trans (end_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelIdeal.RunValue

end
-- ==== Proof.Spec.lean ====
/-
  What the program computes, as functions of its argument arrays at exact arithmetic.

  A dense layer sends a row x (K numbers) to the n numbers (Σₖ xₖ·W(k, q)) + b(q).  The two classification heads
  are one dense layer each, applied to every row of the feature matrix.  The segmentation head is two dense layers
  with a maximum against zero in between, applied to every row; its five numbers per row are then repeated over a
  512 × 512 map.  Every entry of a result therefore depends on ONE row of the feature matrix only, which is what
  lets the segmentation map be computed two rows at a time.
-/
import Idealize.ShloMosaic.Lib.ValueIdx
import Idealize.ShloMosaic.PureOps.Ideal

noncomputable section

namespace Cert.DenseSpec

open Idealize.ShloMosaic Idealize.ShloMosaic.ValueIdx

/-- Entry q of x·W + b for one row x. -/
def rowAffine {K n : Nat} (x : Fin K → EReal) (W : FVec Ideal ⟨2, ![K, n]⟩ .f32) (b : FVec Ideal ⟨1, ![n]⟩ .f32)
    (q : Fin n) : EReal :=
  (∑ k : Fin K, x k * W (ix2 k q)) + b (ix1 q)

/-- Entry l of max(x·W + b, 0) for one row x; the zero is the float pattern of +0. -/
def rowHidden {K H : Nat} (x : Fin K → EReal) (W : FVec Ideal ⟨2, ![K, H]⟩ .f32) (b : FVec Ideal ⟨1, ![H]⟩ .f32)
    (l : Fin H) : EReal :=
  max (rowAffine x W b l) (Ideal.ofBits .f32 0x00000000#32)

/-- Row p of a matrix. -/
def rowOf {m K : Nat} (x : FVec Ideal ⟨2, ![m, K]⟩ .f32) (p : Fin m) : Fin K → EReal := fun k => x (ix2 p k)

/-- A classification head: x·W + b, entry by entry. -/
def logits {m K n : Nat} (x : FVec Ideal ⟨2, ![m, K]⟩ .f32) (W : FVec Ideal ⟨2, ![K, n]⟩ .f32)
    (b : FVec Ideal ⟨1, ![n]⟩ .f32) : FVec Ideal ⟨2, ![m, n]⟩ .f32 :=
  fun i => rowAffine (rowOf x (i 0)) W b (i 1)

/-- The segmentation head before it is spread over the map: max(x·W₁ + b₁, 0)·W₂ + b₂, entry by entry. -/
def segVec {m K H n : Nat} (x : FVec Ideal ⟨2, ![m, K]⟩ .f32) (W₁ : FVec Ideal ⟨2, ![K, H]⟩ .f32)
    (b₁ : FVec Ideal ⟨1, ![H]⟩ .f32) (W₂ : FVec Ideal ⟨2, ![H, n]⟩ .f32) (b₂ : FVec Ideal ⟨1, ![n]⟩ .f32) :
    FVec Ideal ⟨2, ![m, n]⟩ .f32 :=
  fun i => rowAffine (rowHidden (rowOf x (i 0)) W₁ b₁) W₂ b₂ (i 1)

/-- The segmentation map: entry (p, q, y, z) is entry (p, q) of the segmentation head. -/
def segMap {m K H n h w : Nat} (x : FVec Ideal ⟨2, ![m, K]⟩ .f32) (W₁ : FVec Ideal ⟨2, ![K, H]⟩ .f32)
    (b₁ : FVec Ideal ⟨1, ![H]⟩ .f32) (W₂ : FVec Ideal ⟨2, ![H, n]⟩ .f32) (b₂ : FVec Ideal ⟨1, ![n]⟩ .f32) :
    FVec Ideal ⟨4, ![m, n, h, w]⟩ .f32 :=
  fun i => rowAffine (rowHidden (rowOf x (i 0)) W₁ b₁) W₂ b₂ (i 1)

theorem logits_ix2 {m K n : Nat} (x : FVec Ideal ⟨2, ![m, K]⟩ .f32) (W : FVec Ideal ⟨2, ![K, n]⟩ .f32)
    (b : FVec Ideal ⟨1, ![n]⟩ .f32) (p : Fin m) (q : Fin n) :
    logits x W b (ix2 p q) = rowAffine (rowOf x p) W b q := rfl

theorem segMap_ix4 {m K H n h w : Nat} (x : FVec Ideal ⟨2, ![m, K]⟩ .f32) (W₁ : FVec Ideal ⟨2, ![K, H]⟩ .f32)
    (b₁ : FVec Ideal ⟨1, ![H]⟩ .f32) (W₂ : FVec Ideal ⟨2, ![H, n]⟩ .f32) (b₂ : FVec Ideal ⟨1, ![n]⟩ .f32)
    (p : Fin m) (q : Fin n) (y : Fin h) (z : Fin w) :
    segMap (h := h) (w := w) x W₁ b₁ W₂ b₂ (ix4 p q y z) = rowAffine (rowHidden (rowOf x p) W₁ b₁) W₂ b₂ q := rfl

end Cert.DenseSpec

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«164530_j5746666242651_2_alg».proof.Proof.LibDotEntry
import proofs.«164530_j5746666242651_2_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.LibSpread.lean ====
/-
  Layout operations around a per-row result spread over a map, each read at an entry.

  A stack of rows [a, 1, c] cast to the matrix [a, c]; a matrix [a, b] cast to [a, b, 1, 1]; and an [a, b, 1, 1] array
  repeated over an [a, b, h, w] map.  Read at an entry, the first is the operand at (p, 0, k), the second the operand at
  (p, q), the third the operand at (p, q, 0, 0): none of them looks at the map coordinates.  The last two are also read
  as the host spells them, by broadcast_in_dim along the leading axes.
-/
import Idealize.ShloMosaic.Lib.ValueIdx
import Idealize.ShloMosaic.Lib.Pipeline.Value

noncomputable section

namespace Cert.Lib.Spread

open Idealize.ShloMosaic Idealize.ShloMosaic.ValueIdx

variable {α : Type}

/-- An [a, 1, c] array cast to [a, c] reads, at (p, k), the operand at (p, 0, k). -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- An [a, c] array cast to [a, 1, c] reads, at (p, u, k), the operand at (p, k). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- An [a, b] array cast to [a, b, 1, 1] reads, at (p, q, u, v), the operand at (p, q). -/
theorem shapeCast_ab_ab11_apply {a b : ℕ} (x : (⟨2, ![a, b]⟩ : Shape).Idx → α)
    (h : (⟨2, ![a, b]⟩ : Shape).ShapeCasts ⟨4, ![a, b, 1, 1]⟩) (p : Fin a) (q : Fin b) (u v : Fin 1) :
    shapeCast ⟨4, ![a, b, 1, 1]⟩ x h (ix4 p q u v) = x (ix2 p q) :=
  shapeCast_apply x h _ _ (by
    have hu : u.val = 0 := by omega
    have hv : v.val = 0 := by omega
    rw [Shape.rowMajor_val_four, Shape.rowMajor_val_two]
    show p.val * b + q.val = ((p.val * b + q.val) * 1 + u.val) * 1 + v.val
    simp only [hu, hv, Nat.mul_one, Nat.add_zero])

/-- An [a, b, 1, 1] array repeated over an [a, b, h, w] map reads, at (p, q, y, z), the operand at (p, q, 0, 0). -/
theorem broadcastTo_ab11_abhw_apply {a b h w : ℕ} (x : (⟨4, ![a, b, 1, 1]⟩ : Shape).Idx → α)
    (hb : (⟨4, ![a, b, 1, 1]⟩ : Shape).Broadcasts ⟨4, ![a, b, h, w]⟩) (p : Fin a) (q : Fin b) (y : Fin h) (z : Fin w) :
    broadcastTo ⟨4, ![a, b, h, w]⟩ x hb (ix4 p q y z) = x (ix4 p q (0 : Fin 1) (0 : Fin 1)) := by
  refine broadcastTo_apply x hb (ix4 p q y z) (ix4 p q (0 : Fin 1) (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl
  | ⟨3, _⟩ => rfl

/-- A matrix [a, b] laid out as [a, b, 1, 1] by the host (its axes sent to axes 0 and 1) reads, at (p, q, u, v), the
    operand at (p, q). -/
theorem broadcastInDim_ab_ab11_apply {a b : ℕ} (x : (⟨2, ![a, b]⟩ : Shape).Idx → α)
    (hb : (⟨2, ![a, b]⟩ : Shape).BroadcastsInDim ⟨4, ![a, b, 1, 1]⟩ (![0, 1] : Fin 2 → Fin 4))
    (p : Fin a) (q : Fin b) (u v : Fin 1) :
    broadcastInDim ⟨4, ![a, b, 1, 1]⟩ ![0, 1] hb x (ix4 p q u v) = x (ix2 p q) := by
  refine broadcastInDim_apply _ hb x (ix4 p q u v) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, b, 1, 1] array repeated over an [a, b, h, w] map by the host (every axis sent to itself) reads, at
    (p, q, y, z), the operand at (p, q, 0, 0). -/
theorem broadcastInDim_ab11_abhw_apply {a b h w : ℕ} (x : (⟨4, ![a, b, 1, 1]⟩ : Shape).Idx → α)
    (hb : (⟨4, ![a, b, 1, 1]⟩ : Shape).BroadcastsInDim ⟨4, ![a, b, h, w]⟩ (![0, 1, 2, 3] : Fin 4 → Fin 4))
    (p : Fin a) (q : Fin b) (y : Fin h) (z : Fin w) :
    broadcastInDim ⟨4, ![a, b, h, w]⟩ ![0, 1, 2, 3] hb x (ix4 p q y z) = x (ix4 p q (0 : Fin 1) (0 : Fin 1)) := by
  refine broadcastInDim_apply _ hb x (ix4 p q y z) (ix4 p q (0 : Fin 1) (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl
  | ⟨3, _⟩ => rfl

/-- A scalar repeated over any shape by the host reads the scalar at every index. -/
theorem broadcastInDim_scalar_apply {t : Shape} (x : (⟨0, ![]⟩ : Shape).Idx → α) (dims : Fin 0 → Fin t.rank)
    (hb : (⟨0, ![]⟩ : Shape).BroadcastsInDim t dims) (j : t.Idx) : broadcastInDim t dims hb x j = x ix0 :=
  broadcastInDim_apply dims hb x j ix0 fun ax => ax.elim0

end Cert.Lib.Spread

end
-- ==== Proof.KernelPayload.lean ====
/-
  What each kernel body stores, read at an entry, at exact arithmetic.

  The first kernel's two stores are dense layers of its feature block: entry (p, q) of x·W + b.  The second kernel's one
  store is, at entry (p, q, y, z) of its [2, 5, 512, 512] block, the segmentation head of row p of its [2, 1, 1536]
  feature block: max(x·W₁ + b₁, 0)·W₂ + b₂ at q, the same for every map position (y, z).  A change of float format is the
  identity at exact arithmetic, so the casts to bf16 before each product leave no trace.
-/
import proofs.«164530_j5746666242651_2_alg».proof.Proof.Gen.KernelIdeal.Skeleton
import proofs.«164530_j5746666242651_2_alg».proof.Proof.Spec
import proofs.«164530_j5746666242651_2_alg».proof.Proof.LibDenseLayer
import proofs.«164530_j5746666242651_2_alg».proof.Proof.LibSpread

noncomputable section

namespace Cert.KernelIdeal.Payload

open Cert.KernelIdeal Cert.KernelIdeal.Gen
open Idealize.ShloMosaic Idealize.ShloMosaic.TcCoe Idealize.SL.Sem Idealize.ShloMosaic.ValueIdx
open Cert.DenseSpec Cert.Lib.DenseLayer Cert.Lib.Spread

/-- Each of the kernels' four products is a plain matrix product. -/
theorem isMat_dr : IsMatProduct dot_S32x1536_S1536x5_S32x5_1_0_0_1_n_n := ⟨rfl, rfl, rfl, rfl, rfl, rfl⟩
theorem isMat_ed : IsMatProduct dot_S32x1536_S1536x3_S32x3_1_0_0_1_n_n := ⟨rfl, rfl, rfl, rfl, rfl, rfl⟩
theorem isMat_hidden : IsMatProduct dot_S2x1536_S1536x256_S2x256_1_0_0_1_n_n := ⟨rfl, rfl, rfl, rfl, rfl, rfl⟩
theorem isMat_seg : IsMatProduct dot_S2x256_S256x5_S2x5_1_0_0_1_n_n := ⟨rfl, rfl, rfl, rfl, rfl, rfl⟩

/-- The five-class head's store at entry (p, q): row p of the features through the dense layer, at q. -/
theorem pay_dr (x0 : Vec Ideal S32x1536 .f32) (x1 : Vec Ideal S1536x5 .f32) (x2 : Vec Ideal S5 .f32)
    (p : Fin 32) (q : Fin 5) :
    k0_pay2 (F := Ideal) x0 x1 x2 (ix2 p q) = rowAffine (rowOf x0 p) x1 x2 q := by
  unfold k0_pay2 k0_pay1
  exact dense_entry isMat_dr _ _ x2 _ _ p q

/-- The three-class head's store at entry (p, q). -/
theorem pay_ed (x0 : Vec Ideal S32x1536 .f32) (x3 : Vec Ideal S1536x3 .f32) (x4 : Vec Ideal S3 .f32)
    (p : Fin 32) (q : Fin 3) :
    k0_pay3 (F := Ideal) x0 x3 x4 (ix2 p q) = rowAffine (rowOf x0 p) x3 x4 q := by
  unfold k0_pay3 k0_pay1
  exact dense_entry isMat_ed _ _ x4 _ _ p q

/-- The segmentation kernel's store at entry (p, q, y, z): row p of its feature block through both layers, at q. -/
theorem pay_seg (x0 : Vec Ideal S2x1x1536 .f32) (x1 : Vec Ideal S1536x256 .f32) (x2 : Vec Ideal S256 .f32)
    (x3 : Vec Ideal S256x5 .f32) (x4 : Vec Ideal S5 .f32) (p : Fin 2) (q : Fin 5) (y z : Fin 512) :
    k1_pay1 (F := Ideal) x0 x1 x2 x3 x4 (ix4 p q y z)
      = rowAffine (rowHidden (fun k => x0 (ix3 p (0 : Fin 1) k)) x1 x2) x3 x4 q := by
  unfold k1_pay1
  refine (broadcastTo_ab11_abhw_apply _ _ p q y z).trans ?_
  rw [shapeCast_self]
  refine (shapeCast_ab_ab11_apply _ _ p q 0 0).trans ?_
  refine (dense_entry isMat_seg _ _ x4 _ _ p q).trans ?_
  unfold rowAffine
  refine congrArg (· + x4 (ix1 q)) (Finset.sum_congr rfl fun l _ => congrArg (· * x3 (ix2 l q)) ?_)
  rw [truncf_apply, maximumf_apply, dense_entry isMat_hidden]
  unfold rowHidden rowAffine
  refine congrArg₂ max (congrArg (· + x2 (ix1 l)) (Finset.sum_congr rfl fun k _ => congrArg (· * x1 (ix2 k l)) ?_)) rfl
  rw [truncf_apply]
  exact shapeCast_a1c_ac_apply x0 _ p k

end Cert.KernelIdeal.Payload

end
-- ==== Proof.KernelBlocks.lean ====
/-
  From what each grid point writes back to the whole result arrays.

  The first kernel has one grid point and every window's block is its whole array, so each of its two results is its
  store's payload of the whole argument arrays: a dense layer of the features.  The second kernel has sixteen points;
  point t reads rows 2t and 2t+1 of the reshaped features (and the four weight arrays whole) and writes block t of the
  map, entries (2t + p, q, y, z).  Because an entry of the segmentation head depends on one row of the features only, what
  point t writes is block t of ONE whole-array function, the segmentation map of the launched arguments; the sixteen
  blocks tile the map (the point covering row r is r / 2), so the array ends holding that function.
-/
import proofs.«164530_j5746666242651_2_alg».proof.Proof.KernelRun
import proofs.«164530_j5746666242651_2_alg».proof.Proof.KernelPayload
import Idealize.ShloMosaic.Lib.Pipeline.Value

set_option maxRecDepth 16384

noncomputable section

namespace Cert.KernelIdeal.Blocks

open Cert.KernelIdeal Cert.KernelIdeal.Gen Cert.KernelIdeal.RunValue Cert.KernelIdeal.Payload
open Idealize.ShloMosaic Idealize.ShloMosaic.TcCoe Idealize.SL.Sem Idealize.ShloMosaic.ValueIdx
open Idealize.ShloMosaic.Pipeline (Dat)
open Cert.DenseSpec Cert.Lib.Spread

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The first kernel: one point, whole-array blocks -/

/-- Every index map of the first kernel is constantly zero (decided over its one point). -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Each input block of the first kernel is its whole array. -/
theorem block0_0 (V : (c : Dev nD) → (b : Ref sig .tc) → Buf (Elt Ideal) ((c : Thread nD τ).loc b)) (c : Dev nD) (t : Fin cfg0.N) :
    (iblk0 V c 0 t : S32x1536.Idx → Elt Ideal .f32) = V c main_arg0 := by
  funext y
  show V c main_arg0 (((cfg0.win 0).blk t).view.emb y) = V c main_arg0 y
  refine congrArg _ (funext fun a => Fin.ext ?_)
  obtain ⟨e0, e1, -⟩ := idx0 t
  match a with
  | ⟨0, _⟩ => show win0_0.index t (0 : Fin 2) * 32 + 1 * (y 0).val = (y 0).val; omega
  | ⟨1, _⟩ => show win0_0.index t (1 : Fin 2) * 1536 + 1 * (y 1).val = (y 1).val; omega
theorem block0_1 (V : (c : Dev nD) → (b : Ref sig .tc) → Buf (Elt Ideal) ((c : Thread nD τ).loc b)) (c : Dev nD) (t : Fin cfg0.N) :
    (iblk0 V c 1 t : S1536x5.Idx → Elt Ideal .f32) = V c main_arg1 := by
  funext y
  show V c main_arg1 (((cfg0.win 1).blk t).view.emb y) = V c main_arg1 y
  refine congrArg _ (funext fun a => Fin.ext ?_)
  obtain ⟨-, -, e0, e1, -⟩ := idx0 t
  match a with
  | ⟨0, _⟩ => show win0_1.index t (0 : Fin 2) * 1536 + 1 * (y 0).val = (y 0).val; omega
  | ⟨1, _⟩ => show win0_1.index t (1 : Fin 2) * 5 + 1 * (y 1).val = (y 1).val; omega
theorem block0_2 (V : (c : Dev nD) → (b : Ref sig .tc) → Buf (Elt Ideal) ((c : Thread nD τ).loc b)) (c : Dev nD) (t : Fin cfg0.N) :
    (iblk0 V c 2 t : S5.Idx → Elt Ideal .f32) = V c main_arg2 := by
  funext y
  show V c main_arg2 (((cfg0.win 2).blk t).view.emb y) = V c main_arg2 y
  refine congrArg _ (funext fun a => Fin.ext ?_)
  obtain ⟨-, -, -, -, e0, -⟩ := idx0 t
  match a with
  | ⟨0, _⟩ => show win0_2.index t (0 : Fin 1) * 5 + 1 * (y 0).val = (y 0).val; omega
theorem block0_3 (V : (c : Dev nD) → (b : Ref sig .tc) → Buf (Elt Ideal) ((c : Thread nD τ).loc b)) (c : Dev nD) (t : Fin cfg0.N) :
    (iblk0 V c 3 t : S1536x3.Idx → Elt Ideal .f32) = V c main_arg3 := by
  funext y
  show V c main_arg3 (((cfg0.win 3).blk t).view.emb y) = V c main_arg3 y
  refine congrArg _ (funext fun a => Fin.ext ?_)
  obtain ⟨-, -, -, -, -, e0, e1, -⟩ := idx0 t
  match a with
  | ⟨0, _⟩ => show win0_3.index t (0 : Fin 2) * 1536 + 1 * (y 0).val = (y 0).val; omega
  | ⟨1, _⟩ => show win0_3.index t (1 : Fin 2) * 3 + 1 * (y 1).val = (y 1).val; omega
theorem block0_4 (V : (c : Dev nD) → (b : Ref sig .tc) → Buf (Elt Ideal) ((c : Thread nD τ).loc b)) (c : Dev nD) (t : Fin cfg0.N) :
    (iblk0 V c 4 t : S3.Idx → Elt Ideal .f32) = V c main_arg4 := by
  funext y
  show V c main_arg4 (((cfg0.win 4).blk t).view.emb y) = V c main_arg4 y
  refine congrArg _ (funext fun a => Fin.ext ?_)
  obtain ⟨-, -, -, -, -, -, -, e0, -⟩ := idx0 t
  match a with
  | ⟨0, _⟩ => show win0_4.index t (0 : Fin 1) * 3 + 1 * (y 0).val = (y 0).val; omega

/-- What the first kernel's point writes back to the five-class logits is the whole dense layer of the launched
    features. -/
theorem flushed_dr (c : Dev nD) (t : Fin cfg0.N) :
    (dat0 (V0 m ρ) c).flushed 5 t = ((cfg0.win 5).blk t).view.read (Elt Ideal)
      (logits (m ((c : Thread nD τ).loc main_arg0)) (m ((c : Thread nD τ).loc main_arg1)) (m ((c : Thread nD τ).loc main_arg2))) := by
  show (cfg0.win 5).cut (grid0.coords t) ((dat0 (V0 m ρ) c).after 5 t) = _
  rw [after0_5]
  unfold out0_5
  rw [View.canon_unit_zero hz2]
  simp only [View.ld_unit_zero (S := S32x1536) hz2, View.ld_unit_zero (S := S1536x5) hz2, View.ld_unit_zero (S := S5) hz1]
  rw [block0_0, block0_1, block0_2]
  funext j
  obtain ⟨p, q, rfl⟩ : ∃ (p : Fin 32) (q : Fin 5), j = ix2 p q := ⟨j 0, j 1, eq_ix2 j⟩
  have he : ((cfg0.win 5).blk t).view.emb (ix2 p q) = ix2 p q := funext fun a => Fin.ext (by
    obtain ⟨-, -, -, -, -, -, -, -, e0, e1, -⟩ := idx0 t
    match a with
    | ⟨0, _⟩ => show win0_5.index t (0 : Fin 2) * 32 + 1 * p.val = p.val; omega
    | ⟨1, _⟩ => show win0_5.index t (1 : Fin 2) * 5 + 1 * q.val = q.val; omega)
  show k0_pay2 (V0 m ρ c main_arg0) (V0 m ρ c main_arg1) (V0 m ρ c main_arg2) (ix2 p q)
    = logits (m ((c : Thread nD τ).loc main_arg0)) (m ((c : Thread nD τ).loc main_arg1)) (m ((c : Thread nD τ).loc main_arg2))
        (((cfg0.win 5).blk t).view.emb (ix2 p q))
  rw [he]
  exact pay_dr _ _ _ p q

/-- What the first kernel's point writes back to the three-class logits is the whole dense layer of the launched
    features. -/
theorem flushed_ed (c : Dev nD) (t : Fin cfg0.N) :
    (dat0 (V0 m ρ) c).flushed 6 t = ((cfg0.win 6).blk t).view.read (Elt Ideal)
      (logits (m ((c : Thread nD τ).loc main_arg0)) (m ((c : Thread nD τ).loc main_arg3)) (m ((c : Thread nD τ).loc main_arg4))) := by
  show (cfg0.win 6).cut (grid0.coords t) ((dat0 (V0 m ρ) c).after 6 t) = _
  rw [after0_6]
  unfold out0_6
  rw [View.canon_unit_zero hz2]
  simp only [View.ld_unit_zero (S := S32x1536) hz2, View.ld_unit_zero (S := S1536x3) hz2, View.ld_unit_zero (S := S3) hz1]
  rw [block0_0, block0_3, block0_4]
  funext j
  obtain ⟨p, q, rfl⟩ : ∃ (p : Fin 32) (q : Fin 3), j = ix2 p q := ⟨j 0, j 1, eq_ix2 j⟩
  have he : ((cfg0.win 6).blk t).view.emb (ix2 p q) = ix2 p q := funext fun a => Fin.ext (by
    obtain ⟨-, -, -, -, -, -, -, -, -, -, e0, e1⟩ := idx0 t
    match a with
    | ⟨0, _⟩ => show win0_6.index t (0 : Fin 2) * 32 + 1 * p.val = p.val; omega
    | ⟨1, _⟩ => show win0_6.index t (1 : Fin 2) * 3 + 1 * q.val = q.val; omega)
  show k0_pay3 (V0 m ρ c main_arg0) (V0 m ρ c main_arg3) (V0 m ρ c main_arg4) (ix2 p q)
    = logits (m ((c : Thread nD τ).loc main_arg0)) (m ((c : Thread nD τ).loc main_arg3)) (m ((c : Thread nD τ).loc main_arg4))
        (((cfg0.win 6).blk t).view.emb (ix2 p q))
  rw [he]
  exact pay_ed _ _ _ p q

/-- An index of the five-class logits is in a point's block iff each coordinate is in the block's range on its axis. -/
theorem mem_blk_dr (t : Fin cfg0.N) (i : S32x5.Idx) :
    i ∈ ((cfg0.win 5).blk t).view.set ↔ ∀ a : Fin 2, win0_5.index t a * S32x5.size a ≤ (i a).val ∧ (i a).val < win0_5.index t a * S32x5.size a + S32x5.size a := by
  show i ∈ ((View.whole main_v0_0).slice (win0_5.rect t)).set ↔ _
  rw [View.set_slice_whole, Rect.mem_set_unit]
  exact Iff.rfl

theorem mem_blk_ed (t : Fin cfg0.N) (i : S32x3.Idx) :
    i ∈ ((cfg0.win 6).blk t).view.set ↔ ∀ a : Fin 2, win0_6.index t a * S32x3.size a ≤ (i a).val ∧ (i a).val < win0_6.index t a * S32x3.size a + S32x3.size a := by
  show i ∈ ((View.whole main_v0_1).slice (win0_6.rect t)).set ↔ _
  rw [View.set_slice_whole, Rect.mem_set_unit]
  exact Iff.rfl

/-- The one point's block is the whole array of logits. -/
theorem cover_dr (i : S32x5.Idx) : ∃ t : Fin cfg0.N, (cfg0.win 5).flush t = true ∧ i ∈ ((cfg0.win 5).blk t).view.set := by
  refine ⟨t0_0, flush0_5 t0_0, ?_⟩
  rw [mem_blk_dr]
  obtain ⟨-, -, -, -, -, -, -, -, e0, e1, -⟩ := idx0 t0_0
  have h0 : (i 0).val < 32 := (i 0).isLt
  have h1 : (i 1).val < 5 := (i 1).isLt
  intro a
  match a with
  | ⟨0, _⟩ => show win0_5.index t0_0 (0 : Fin 2) * 32 ≤ (i 0).val ∧ (i 0).val < win0_5.index t0_0 (0 : Fin 2) * 32 + 32; omega
  | ⟨1, _⟩ => show win0_5.index t0_0 (1 : Fin 2) * 5 ≤ (i 1).val ∧ (i 1).val < win0_5.index t0_0 (1 : Fin 2) * 5 + 5; omega

theorem cover_ed (i : S32x3.Idx) : ∃ t : Fin cfg0.N, (cfg0.win 6).flush t = true ∧ i ∈ ((cfg0.win 6).blk t).view.set := by
  refine ⟨t0_0, flush0_6 t0_0, ?_⟩
  rw [mem_blk_ed]
  obtain ⟨-, -, -, -, -, -, -, -, -, -, e0, e1⟩ := idx0 t0_0
  have h0 : (i 0).val < 32 := (i 0).isLt
  have h1 : (i 1).val < 3 := (i 1).isLt
  intro a
  match a with
  | ⟨0, _⟩ => show win0_6.index t0_0 (0 : Fin 2) * 32 ≤ (i 0).val ∧ (i 0).val < win0_6.index t0_0 (0 : Fin 2) * 32 + 32; omega
  | ⟨1, _⟩ => show win0_6.index t0_0 (1 : Fin 2) * 3 ≤ (i 1).val ∧ (i 1).val < win0_6.index t0_0 (1 : Fin 2) * 3 + 3; omega

/-- After the first kernel the five-class logits are the dense layer of the launched features. -/
theorem final_dr (c : Dev nD) : (dat0 (V0 m ρ) c).arrAt 5 cfg0.N
    = logits (m ((c : Thread nD τ).loc main_arg0)) (m ((c : Thread nD τ).loc main_arg1)) (m ((c : Thread nD τ).loc main_arg2)) :=
  (dat0 (V0 m ρ) c).arrAt_eq_of_cover 5 _ (fun t _ => flushed_dr m ρ c t) cover_dr

/-- After the first kernel the three-class logits are the dense layer of the launched features. -/
theorem final_ed (c : Dev nD) : (dat0 (V0 m ρ) c).arrAt 6 cfg0.N
    = logits (m ((c : Thread nD τ).loc main_arg0)) (m ((c : Thread nD τ).loc main_arg3)) (m ((c : Thread nD τ).loc main_arg4)) :=
  (dat0 (V0 m ρ) c).arrAt_eq_of_cover 6 _ (fun t _ => flushed_ed m ρ c t) cover_ed

/-! ## The second kernel: sixteen points, two rows of the features each -/

/-- The second kernel's index maps (decided over its sixteen points): the feature window and the map window move with
    the point along their first axis; everything else stays at zero. -/
theorem idx1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 4) = t.val ∧ win1_5.index t (1 : Fin 4) = 0 ∧ win1_5.index t (2 : Fin 4) = 0
    ∧ win1_5.index t (3 : Fin 4) = 0 ∧ t.val < 16 :=
  (by decide +kernel : ∀ t : Fin grid1.N, _)

/-- Every pair of rows is some point's. -/
theorem idx1_onto : ∀ s : Fin 16, ∃ t : Fin cfg1.N, t.val = s.val :=
  (by decide +kernel : ∀ s : Fin 16, ∃ t : Fin grid1.N, t.val = s.val)

/-- Each weight block of the second kernel is its whole array, as launched. -/
theorem block1_1 (c : Dev nD) (t : Fin cfg1.N) :
    (iblk1 (V2 m ρ) c 1 t : S1536x256.Idx → Elt Ideal .f32) = m ((c : Thread nD τ).loc main_arg5) := by
  rw [← entry_main_arg5 m ρ c]
  funext y
  show V2 m ρ c main_arg5 (((cfg1.win 1).blk t).view.emb y) = V2 m ρ c main_arg5 y
  refine congrArg _ (funext fun a => Fin.ext ?_)
  obtain ⟨-, -, -, e0, e1, -⟩ := idx1 t
  match a with
  | ⟨0, _⟩ => show win1_1.index t (0 : Fin 2) * 1536 + 1 * (y 0).val = (y 0).val; omega
  | ⟨1, _⟩ => show win1_1.index t (1 : Fin 2) * 256 + 1 * (y 1).val = (y 1).val; omega
theorem block1_2 (c : Dev nD) (t : Fin cfg1.N) :
    (iblk1 (V2 m ρ) c 2 t : S256.Idx → Elt Ideal .f32) = m ((c : Thread nD τ).loc main_arg6) := by
  rw [← entry_main_arg6 m ρ c]
  funext y
  show V2 m ρ c main_arg6 (((cfg1.win 2).blk t).view.emb y) = V2 m ρ c main_arg6 y
  refine congrArg _ (funext fun a => Fin.ext ?_)
  obtain ⟨-, -, -, -, -, e0, -⟩ := idx1 t
  match a with
  | ⟨0, _⟩ => show win1_2.index t (0 : Fin 1) * 256 + 1 * (y 0).val = (y 0).val; omega
theorem block1_3 (c : Dev nD) (t : Fin cfg1.N) :
    (iblk1 (V2 m ρ) c 3 t : S256x5.Idx → Elt Ideal .f32) = m ((c : Thread nD τ).loc main_arg7) := by
  rw [← entry_main_arg7 m ρ c]
  funext y
  show V2 m ρ c main_arg7 (((cfg1.win 3).blk t).view.emb y) = V2 m ρ c main_arg7 y
  refine congrArg _ (funext fun a => Fin.ext ?_)
  obtain ⟨-, -, -, -, -, -, e0, e1, -⟩ := idx1 t
  match a with
  | ⟨0, _⟩ => show win1_3.index t (0 : Fin 2) * 256 + 1 * (y 0).val = (y 0).val; omega
  | ⟨1, _⟩ => show win1_3.index t (1 : Fin 2) * 5 + 1 * (y 1).val = (y 1).val; omega
theorem block1_4 (c : Dev nD) (t : Fin cfg1.N) :
    (iblk1 (V2 m ρ) c 4 t : S5.Idx → Elt Ideal .f32) = m ((c : Thread nD τ).loc main_arg8) := by
  rw [← entry_main_arg8 m ρ c]
  funext y
  show V2 m ρ c main_arg8 (((cfg1.win 4).blk t).view.emb y) = V2 m ρ c main_arg8 y
  refine congrArg _ (funext fun a => Fin.ext ?_)
  obtain ⟨-, -, -, -, -, -, -, -, e0, -⟩ := idx1 t
  match a with
  | ⟨0, _⟩ => show win1_4.index t (0 : Fin 1) * 5 + 1 * (y 0).val = (y 0).val; omega

/-- Row p of point t's feature block is row 2t + p of the launched features. -/
theorem block1_row (c : Dev nD) (t : Fin cfg1.N) (p : Fin 2) (k : Fin 1536) (r : Fin 32) (hr : r.val = t.val * 2 + p.val) :
    iblk1 (V2 m ρ) c 0 t (ix3 p (0 : Fin 1) k) = (m ((c : Thread nD τ).loc main_arg0) : S32x1536.Idx → Elt Ideal .f32) (ix2 r k) := by
  show V2 m ρ c main_v1 (((cfg1.win 0).blk t).view.emb (ix3 p (0 : Fin 1) k)) = _
  have he : ((cfg1.win 0).blk t).view.emb (ix3 p (0 : Fin 1) k) = ix3 r (0 : Fin 1) k := funext fun a => Fin.ext (by
    obtain ⟨e0, e1, e2, -⟩ := idx1 t
    match a with
    | ⟨0, _⟩ => show win1_0.index t (0 : Fin 3) * 2 + 1 * p.val = r.val; omega
    | ⟨1, _⟩ => show win1_0.index t (1 : Fin 3) * 1 + 1 * 0 = 0; omega
    | ⟨2, _⟩ => show win1_0.index t (2 : Fin 3) * 1536 + 1 * k.val = k.val; omega)
  rw [he, entry_main_v1]
  exact shapeCast_ac_a1c_apply _ _ r 0 k

/-- What point t writes back is block t of the segmentation map of the launched arguments. -/
theorem flushed_seg (c : Dev nD) (t : Fin cfg1.N) :
    (dat1 (V2 m ρ) c).flushed 5 t = ((cfg1.win 5).blk t).view.read (Elt Ideal)
      (segMap (m ((c : Thread nD τ).loc main_arg0)) (m ((c : Thread nD τ).loc main_arg5)) (m ((c : Thread nD τ).loc main_arg6))
        (m ((c : Thread nD τ).loc main_arg7)) (m ((c : Thread nD τ).loc main_arg8))) := by
  show (cfg1.win 5).cut (grid1.coords t) ((dat1 (V2 m ρ) c).after 5 t) = _
  rw [after1_5]
  unfold out1_5
  rw [View.canon_unit_zero hz4]
  simp only [View.ld_unit_zero (S := S2x1x1536) hz3, View.ld_unit_zero (S := S1536x256) hz2, View.ld_unit_zero (S := S256) hz1,
    View.ld_unit_zero (S := S256x5) hz2, View.ld_unit_zero (S := S5) hz1]
  rw [block1_1, block1_2, block1_3, block1_4]
  funext j
  obtain ⟨p, q, y, z, rfl⟩ : ∃ (p : Fin 2) (q : Fin 5) (y z : Fin 512), j = ix4 p q y z := ⟨j 0, j 1, j 2, j 3, eq_ix4 j⟩
  obtain ⟨-, -, -, -, -, -, -, -, -, e0, e1, e2, e3, ht⟩ := idx1 t
  have he : ((cfg1.win 5).blk t).view.emb (ix4 p q y z) = ix4 (⟨t.val * 2 + p.val, by omega⟩ : Fin 32) q y z :=
    funext fun a => Fin.ext (by
      match a with
      | ⟨0, _⟩ => show win1_5.index t (0 : Fin 4) * 2 + 1 * p.val = t.val * 2 + p.val; omega
      | ⟨1, _⟩ => show win1_5.index t (1 : Fin 4) * 5 + 1 * q.val = q.val; omega
      | ⟨2, _⟩ => show win1_5.index t (2 : Fin 4) * 512 + 1 * y.val = y.val; omega
      | ⟨3, _⟩ => show win1_5.index t (3 : Fin 4) * 512 + 1 * z.val = z.val; omega)
  show k1_pay1 (iblk1 (V2 m ρ) c 0 t) (m ((c : Thread nD τ).loc main_arg5)) (m ((c : Thread nD τ).loc main_arg6))
      (m ((c : Thread nD τ).loc main_arg7)) (m ((c : Thread nD τ).loc main_arg8)) (ix4 p q y z)
    = segMap (m ((c : Thread nD τ).loc main_arg0)) (m ((c : Thread nD τ).loc main_arg5)) (m ((c : Thread nD τ).loc main_arg6))
        (m ((c : Thread nD τ).loc main_arg7)) (m ((c : Thread nD τ).loc main_arg8)) (((cfg1.win 5).blk t).view.emb (ix4 p q y z))
  rw [he, pay_seg, segMap_ix4]
  refine congrArg (fun x => rowAffine (rowHidden x _ _) _ _ q) (funext fun k => ?_)
  exact block1_row m ρ c t p k _ rfl

/-- An index of the map is in a point's block iff each coordinate is in the block's range on its axis. -/
theorem mem_blk_seg (t : Fin cfg1.N) (i : S32x5x512x512.Idx) :
    i ∈ ((cfg1.win 5).blk t).view.set ↔ ∀ a : Fin 4, win1_5.index t a * S2x5x512x512.size a ≤ (i a).val ∧ (i a).val < win1_5.index t a * S2x5x512x512.size a + S2x5x512x512.size a := by
  show i ∈ ((View.whole main_v2).slice (win1_5.rect t)).set ↔ _
  rw [View.set_slice_whole, Rect.mem_set_unit]
  exact Iff.rfl

/-- The sixteen blocks tile the map: row r is in the block of point r / 2. -/
theorem cover_seg (i : S32x5x512x512.Idx) : ∃ t : Fin cfg1.N, (cfg1.win 5).flush t = true ∧ i ∈ ((cfg1.win 5).blk t).view.set := by
  have h0 : (i 0).val < 32 := (i 0).isLt
  have h1 : (i 1).val < 5 := (i 1).isLt
  have h2 : (i 2).val < 512 := (i 2).isLt
  have h3 : (i 3).val < 512 := (i 3).isLt
  obtain ⟨t, ht⟩ := idx1_onto ⟨(i 0).val / 2, by omega⟩
  have ht' : t.val = (i 0).val / 2 := ht
  refine ⟨t, flush1_5 t, ?_⟩
  rw [mem_blk_seg]
  obtain ⟨-, -, -, -, -, -, -, -, -, e0, e1, e2, e3, -⟩ := idx1 t
  intro a
  match a with
  | ⟨0, _⟩ => show win1_5.index t (0 : Fin 4) * 2 ≤ (i 0).val ∧ (i 0).val < win1_5.index t (0 : Fin 4) * 2 + 2; omega
  | ⟨1, _⟩ => show win1_5.index t (1 : Fin 4) * 5 ≤ (i 1).val ∧ (i 1).val < win1_5.index t (1 : Fin 4) * 5 + 5; omega
  | ⟨2, _⟩ => show win1_5.index t (2 : Fin 4) * 512 ≤ (i 2).val ∧ (i 2).val < win1_5.index t (2 : Fin 4) * 512 + 512; omega
  | ⟨3, _⟩ => show win1_5.index t (3 : Fin 4) * 512 ≤ (i 3).val ∧ (i 3).val < win1_5.index t (3 : Fin 4) * 512 + 512; omega

/-- After the second kernel the map is the segmentation map of the launched arguments. -/
theorem final_seg (c : Dev nD) : (dat1 (V2 m ρ) c).arrAt 5 cfg1.N
    = segMap (m ((c : Thread nD τ).loc main_arg0)) (m ((c : Thread nD τ).loc main_arg5)) (m ((c : Thread nD τ).loc main_arg6))
        (m ((c : Thread nD τ).loc main_arg7)) (m ((c : Thread nD τ).loc main_arg8)) :=
  (dat1 (V2 m ρ) c).arrAt_eq_of_cover 5 _ (fun t _ => flushed_seg m ρ c t) cover_seg

end Cert.KernelIdeal.Blocks

end
-- ==== Proof.RefValue.lean ====
/-
  What the reference computes, as the functions of Spec.lean.

  The reference's three results are, operation by operation: a product of the features with a weight matrix plus the
  bias laid out over the rows (the two classification heads), and for the segmentation map the same twice with a maximum
  against zero in between, then the [32, 5] result laid out as [32, 5, 1, 1] and repeated over the 512 × 512 map.  Read
  at an entry each is the dense layer of ONE row of the features.
-/
import proofs.«164530_j5746666242651_2_alg».proof.Proof.Gen.ReferenceIdeal.Read
import proofs.«164530_j5746666242651_2_alg».proof.Proof.Spec
import proofs.«164530_j5746666242651_2_alg».proof.Proof.LibDenseLayer
import proofs.«164530_j5746666242651_2_alg».proof.Proof.LibSpread

noncomputable section

namespace Cert.ReferenceIdeal.RefValue

open Cert.ReferenceIdeal Cert.ReferenceIdeal.Read
open Idealize.ShloMosaic Idealize.ShloMosaic.TcCoe Idealize.SL.Sem Idealize.ShloMosaic.ValueIdx
open Cert.DenseSpec Cert.Lib.DenseLayer Cert.Lib.Spread

/-- Each of the reference's four products is a plain matrix product. -/
theorem isMat_dr : IsMatProduct dot_S32x1536_S1536x5_S32x5_1_0_0_1_n_n := ⟨rfl, rfl, rfl, rfl, rfl, rfl⟩
theorem isMat_ed : IsMatProduct dot_S32x1536_S1536x3_S32x3_1_0_0_1_n_n := ⟨rfl, rfl, rfl, rfl, rfl, rfl⟩
theorem isMat_hidden : IsMatProduct dot_S32x1536_S1536x256_S32x256_1_0_0_1_n_n := ⟨rfl, rfl, rfl, rfl, rfl, rfl⟩
theorem isMat_seg : IsMatProduct dot_S32x256_S256x5_S32x5_1_0_0_1_n_n := ⟨rfl, rfl, rfl, rfl, rfl, rfl⟩

/-- The reference's five-class logits are the dense layer of the features. -/
theorem ref_dr (x0 : (⟨S32x1536, .f32⟩ : BufTy).Contents (Elt Ideal)) (x1 : (⟨S1536x5, .f32⟩ : BufTy).Contents (Elt Ideal))
    (x2 : (⟨S5, .f32⟩ : BufTy).Contents (Elt Ideal)) :
    val_main_v3 (F := Ideal) x0 x1 x2 = logits x0 x1 x2 := by
  funext i
  obtain ⟨p, q, rfl⟩ : ∃ (p : Fin 32) (q : Fin 5), i = ix2 p q := ⟨i 0, i 1, eq_ix2 i⟩
  unfold val_main_v3 val_main_v0 val_main_v2 val_main_v1
  exact host_dense_entry isMat_dr x0 x1 x2 _ _ p q

/-- The reference's three-class logits are the dense layer of the features. -/
theorem ref_ed (x0 : (⟨S32x1536, .f32⟩ : BufTy).Contents (Elt Ideal)) (x3 : (⟨S1536x3, .f32⟩ : BufTy).Contents (Elt Ideal))
    (x4 : (⟨S3, .f32⟩ : BufTy).Contents (Elt Ideal)) :
    val_main_v7 (F := Ideal) x0 x3 x4 = logits x0 x3 x4 := by
  funext i
  obtain ⟨p, q, rfl⟩ : ∃ (p : Fin 32) (q : Fin 3), i = ix2 p q := ⟨i 0, i 1, eq_ix2 i⟩
  unfold val_main_v7 val_main_v4 val_main_v6 val_main_v5
  exact host_dense_entry isMat_ed x0 x3 x4 _ _ p q

/-- The reference's segmentation map is the two-layer head of each row of the features, the same at every map
    position. -/
theorem ref_seg (x0 : (⟨S32x1536, .f32⟩ : BufTy).Contents (Elt Ideal)) (x5 : (⟨S1536x256, .f32⟩ : BufTy).Contents (Elt Ideal))
    (x6 : (⟨S256, .f32⟩ : BufTy).Contents (Elt Ideal)) (x7 : (⟨S256x5, .f32⟩ : BufTy).Contents (Elt Ideal))
    (x8 : (⟨S5, .f32⟩ : BufTy).Contents (Elt Ideal)) :
    val_main_v18 (F := Ideal) x0 x5 x6 x7 x8 = segMap x0 x5 x6 x7 x8 := by
  funext i
  obtain ⟨p, q, y, z, rfl⟩ : ∃ (p : Fin 32) (q : Fin 5) (y z : Fin 512), i = ix4 p q y z :=
    ⟨i 0, i 1, i 2, i 3, eq_ix4 i⟩
  unfold val_main_v18 val_main_v17 val_main_v16 val_main_v13 val_main_v15 val_main_v14 val_main_v12 val_main_v11
    val_main_v8 val_main_v10 val_main_v9 val_main_call0_v0 val_main_call0_cst
  refine (broadcastInDim_ab11_abhw_apply _ _ p q y z).trans ?_
  refine (broadcastInDim_ab_ab11_apply _ _ p q 0 0).trans ?_
  refine (host_dense_entry isMat_seg _ x7 x8 _ _ p q).trans ?_
  show _ = rowAffine (rowHidden (rowOf x0 p) x5 x6) x7 x8 q
  unfold rowAffine
  refine congrArg (· + x8 (ix1 q)) (Finset.sum_congr rfl fun l _ => congrArg (· * x7 (ix2 l q)) ?_)
  rw [maximumf_apply, host_dense_entry isMat_hidden, broadcastInDim_scalar_apply]
  rfl

end Cert.ReferenceIdeal.RefValue

end
-- ==== Proof.lean ====
/-
  A Pallas program of two kernels against its jnp reference: two classification heads and a segmentation head on
  pooled features [32, 1536].

  Each head is a dense layer x·W + b of the feature rows; the segmentation head is two dense layers with a maximum
  against zero in between, its [32, 5] result repeated over a 512 × 512 map.  The kernels cast their matrix factors to
  bf16 before each product and accumulate in f32; the reference multiplies in f32.  At exact arithmetic a change of
  float format is the identity and a TensorCore product into a zero accumulator is the host's dot_general, so both
  programs compute, entry by entry, the same sums: no law of the extended reals beyond that is used, and the
  finiteness of the inputs is never opened.

  The first kernel runs at one grid point on whole arrays.  The second runs at sixteen points, two feature rows and one
  [2, 5, 512, 512] block of the map each; since an entry of the head depends on one feature row only, the sixteen blocks
  are the blocks of one whole-array function, and they tile the map.

  Spec.lean states the three results as functions of the arguments; RefValue.lean reads the reference's run as those
  functions; KernelPayload.lean reads each kernel store at an entry; KernelBlocks.lean goes from the per-point
  write-backs to the whole arrays; KernelRun.lean is the two-kernel program's run with its result arrays named.
-/
import proofs.«164530_j5746666242651_2_alg».proof.Defs
import proofs.«164530_j5746666242651_2_alg».proof.Proof.Gen.Kernel
import proofs.«164530_j5746666242651_2_alg».proof.Proof.Gen.Kernel.Skeleton
import proofs.«164530_j5746666242651_2_alg».proof.Proof.Gen.Kernel.Launch
import proofs.«164530_j5746666242651_2_alg».proof.Proof.Gen.Kernel.Points
import proofs.«164530_j5746666242651_2_alg».proof.Proof.Gen.Kernel.Frame
import proofs.«164530_j5746666242651_2_alg».proof.Proof.Gen.KernelIdeal
import proofs.«164530_j5746666242651_2_alg».proof.Proof.Gen.KernelIdeal.Skeleton
import proofs.«164530_j5746666242651_2_alg».proof.Proof.Gen.KernelIdeal.Launch
import proofs.«164530_j5746666242651_2_alg».proof.Proof.Gen.KernelIdeal.Points
import proofs.«164530_j5746666242651_2_alg».proof.Proof.Gen.KernelIdeal.Frame
import proofs.«164530_j5746666242651_2_alg».proof.Proof.Gen.ReferenceIdeal
import proofs.«164530_j5746666242651_2_alg».proof.Proof.Gen.Pre_finite_inputs
import proofs.«164530_j5746666242651_2_alg».proof.Proof.Gen.ReferenceIdeal.Run
import proofs.«164530_j5746666242651_2_alg».proof.Proof.Gen.ReferenceIdeal.Read
import proofs.«164530_j5746666242651_2_alg».proof.Proof.KernelBlocks
import proofs.«164530_j5746666242651_2_alg».proof.Proof.RefValue
import Idealize.ShloMosaic.Adequacy
import Idealize.ShloMosaic.Init

noncomputable section

namespace Cert.Proof

open Idealize.ShloMosaic Idealize.ShloMosaic.TcCoe Idealize.SL.Sem
open Cert.DenseSpec

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: the idealized kernel is the kernel's own text read at exact arithmetic. -/
theorem preserves : Cert.preserves_Kernel_KernelIdeal := trivial

/-- Both programs end with the two heads' logits and the segmentation map of the launched arguments: the kernel by
    its write-backs, block by block, the reference by its operations read at an entry. -/
theorem algebraic : Cert.algebraic_KernelIdeal_ReferenceIdeal := by
  intro m ρ m' ρ' _ hagree
  refine ⟨fun c => logits (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => logits (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      fun c => segMap (m ((c.tc : Thread Cert.KernelIdeal.nD Cert.KernelIdeal.τ).loc Cert.KernelIdeal.main_arg0))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono (fun r h c =>
      ⟨(h c).1.trans (Cert.KernelIdeal.Blocks.final_dr m ρ c),
       (h c).2.1.trans (Cert.KernelIdeal.Blocks.final_ed m ρ c),
       (h c).2.2.1.trans (Cert.KernelIdeal.Blocks.final_seg m ρ c),
       (h c).2.2.2⟩) (Cert.KernelIdeal.RunValue.run_results m ρ)
  · refine (θ_run Cert.ReferenceIdeal.defs _ _).mono (fun r h c => ?_)
      (Cert.ReferenceIdeal.Value.run (F := Ideal) m' ρ')
    obtain ⟨a0, a1, a2, a3, a4, a5, a6, a7, a8⟩ := hagree c
    refine ⟨(h c).1.trans ?_, (h c).2.1.trans ?_, (h c).2.2.1.trans ?_, (h c).2.2.2⟩
    · rw [Cert.ReferenceIdeal.Read.val_main_v3_eq, Cert.ReferenceIdeal.RefValue.ref_dr, a0, a1, a2]
    · rw [Cert.ReferenceIdeal.Read.val_main_v7_eq, Cert.ReferenceIdeal.RefValue.ref_ed, a0, a3, a4]
    · rw [Cert.ReferenceIdeal.Read.val_main_v18_eq, Cert.ReferenceIdeal.RefValue.ref_seg, a0, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
